-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512 : Shape := ⟨3, ![8, 128, 512]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1024x1 .f32) (main_arg5 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1 .f32 := Host.absf main_arg4
  let main_cst_6 : FVec F S_ .f32 := constant S_ .f32 0x7F800000#32
  let main_v20 : FVec F S1024x1 .f32 := broadcastInDim S1024x1 ![] bcast_S_S1024x1 main_cst_6
  let main_v21 : IVec S1024x1 1 := cmpf .olt main_v19 main_v20
  let main_c_7 : IVec S_ 1 := constantI S_ 1 1#1
  let main_v22 : IVec S_ 1 := (fun x v => Host.reduce IntOp.andi x v reducesTo_S1024x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8x128x512 .f32) (main_arg1 : FVec F S8x128x512 .f32) (main_arg2 : FVec F S1024x1024 .f32) (main_arg3 : FVec F S1024 .f32) (main_arg4 : FVec F S1024x1 .f32) (main_arg5 : FVec F S1 .f32) : IVec S_ 1 :=
  let main_v0 : FVec F S8x128x512 .f32 := Host.absf main_arg0
  let main_cst : FVec F S_ .f32 := constant S_ .f32 0x7F800000#32
  let main_v1 : FVec F S8x128x512 .f32 := broadcastInDim S8x128x512 ![] bcast_S_S8x128x512 main_cst
  let main_v2 : IVec S8x128x512 1 := cmpf .olt main_v0 main_v1
  let main_c : IVec S_ 1 := constantI S_ 1 1#1
  let main_v3 : IVec S_ 1 := (fun x v => Host.reduce IntOp.andi x v reducesTo_S8x128x512_S_d0_1_2 h_S_) main_v2 main_c
  let main_v4 : FVec F S8x128x512 .f32 := Host.absf main_arg1
  let main_cst_0 : FVec F S_ .f32 := constant S_ .f32 0x7F800000#32
  let main_v5 : FVec F S8x128x512 .f32 := broadcastInDim S8x128x512 ![] bcast_S_S8x128x512 main_cst_0
  let main_v6 : IVec S8x128x512 1 := cmpf .olt main_v4 main_v5
  let main_c_1 : IVec S_ 1 := constantI S_ 1 1#1
  let main_v7 : IVec S_ 1 := (fun x v => Host.reduce IntOp.andi x v reducesTo_S8x128x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8x128x512 : Shape := ⟨3, ![8, 128, 512]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S512x1024 : Shape := ⟨2, ![512, 1024]⟩
abbrev S512x1 : Shape := ⟨2, ![512, 1]⟩
abbrev S1x512 : Shape := ⟨2, ![1, 512]⟩
abbrev S_ : Shape := ⟨0, ![]⟩
abbrev S1x1 : Shape := ⟨2, ![1, 1]⟩
abbrev S8x128x128 : Shape := ⟨3, ![8, 128, 128]⟩
abbrev S1x128x512 : Shape := ⟨3, ![1, 128, 512]⟩
abbrev S1x128x128 : Shape := ⟨3, ![1, 128, 128]⟩
abbrev S128x512 : Shape := ⟨2, ![128, 512]⟩
abbrev S512x128 : Shape := ⟨2, ![512, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩

abbrev nBuf : Space → Nat
  | .hbm => 20
  | .vmem => 9
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S1024x1024, .f32⟩
  | .hbm, ⟨3, _⟩ => ⟨S1024, .f32⟩
  | .hbm, ⟨4, _⟩ => ⟨S1024x1, .f32⟩
  | .hbm, ⟨5, _⟩ => ⟨S1, .f32⟩
  | .hbm, ⟨6, _⟩ => ⟨S512x1024, .f32⟩
  | .hbm, ⟨7, _⟩ => ⟨S512x1024, .f32⟩
  | .hbm, ⟨8, _⟩ => ⟨S512x1, .f32⟩
  | .hbm, ⟨9, _⟩ => ⟨S1x512, .f32⟩
  | .hbm, ⟨10, _⟩ => ⟨S512x1, .f32⟩
  | .hbm, ⟨11, _⟩ => ⟨S1x512, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S8x128x128, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x512, .f32⟩
  | .local _ .vmem, ⟨5, _⟩ => ⟨S1x512, .f32⟩
  | .local _ .vmem, ⟨6, _⟩ => ⟨S1x1, .f32⟩
  | .local _ .vmem, ⟨7, _⟩ => ⟨S1x128x128, .f32⟩
  | .local _ .vmem, ⟨8, _⟩ => ⟨S1x128x128, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1024x1024_S512x1024_0_0 : S1024x1024.Slices ![0, 0] S512x1024
  slices_S1024x1024_S512x1024_512_0 : S1024x1024.Slices ![512, 0] S512x1024
  shapeCasts_S512x1_S1x512 : S512x1.ShapeCasts S1x512
  shapeCasts_S1024x1_S1024 : S1024x1.ShapeCasts S1024
  reducesTo_S1024_S_d0 : S1024.ReducesTo [0] S_
  h_S_ : 0 < S_.numel
  shapeCasts_S1_S_ : S1.ShapeCasts S_
  shapeCasts_S_S1x1 : S_.ShapeCasts S1x1
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S1x512_S128x512 : S1x512.Broadcasts S128x512
  bitsLt_bf16_f32 : FTy.bits .bf16 < FTy.bits .f32
  transposes_S128x512_p1_0_S512x128 : S128x512.Transposes [1, 0] S512x128
  reduces_S128x512_S128 : S128x512.Reduces [1] S128
  shapeCasts_S128_S128x1 : S128.ShapeCasts S128x1
  transposes_S128x1_p1_0_S1x128 : S128x1.Transposes [1, 0] S1x128
  broadcasts_S128x1_S128x128 : S128x1.Broadcasts S128x128
  broadcasts_S1x128_S128x128 : S1x128.Broadcasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  dot_S512x1024_S1024x1_S512x1_1_0_0_1_n_n_wf : DotDims.WF S512x1024 S1024x1 S512x1 [1] [0] [0] [1] [] []
  dot_S128x512_S512x128_S128x128_1_0_0_1_n_n_wf : DotDims.WF S128x512 S512x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S8x128x512.size a
  hwx0_0 : ∀ i : grid0.Coords, EltTy.bits .f32 = 32 ∨ (Rect.block (s := S8x128x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x128x512.size a
  hwx0_1 : ∀ i : grid0.Coords, EltTy.bits .f32 = 32 ∨ (Rect.block (s := S8x128x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x128.size a ≤ S8x128x128.size a
  hwx0_5 : ∀ i : grid0.Coords, EltTy.bits .f32 = 32 ∨ (Rect.block (s := S8x128x128) S1x128x128.size (cc0_transform_5 i) (hinb0_5 i)).WholeWords (EltTy.packing .f32)

variable [Facts₀]

def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf

abbrev win0_0 : Pipeline.Window sig grid0 :=
  Pipeline.Window.ofSpec (Memref.whole main_arg0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x128x512 : Shape := ⟨3, ![8, 128, 512]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S8x128x1x512 : Shape := ⟨4, ![8, 128, 1, 512]⟩
abbrev S8x1x128x512 : Shape := ⟨4, ![8, 1, 128, 512]⟩
abbrev S8x128x128x512 : Shape := ⟨4, ![8, 128, 128, 512]⟩
abbrev S8x128x128x1024 : Shape := ⟨4, ![8, 128, 128, 1024]⟩
abbrev S1x1x1x1024 : Shape := ⟨4, ![1, 1, 1, 1024]⟩
abbrev S8x128x128x1 : Shape := ⟨4, ![8, 128, 128, 1]⟩
abbrev S1x1x1x1 : Shape := ⟨4, ![1, 1, 1, 1]⟩
abbrev S8x128x128 : Shape := ⟨3, ![8, 128, 128]⟩

abbrev nBuf : Space → Nat
  | .hbm => 24
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S1024x1024, .f32⟩
  | .hbm, ⟨3, _⟩ => ⟨S1024, .f32⟩
  | .hbm, ⟨4, _⟩ => ⟨S1024x1, .f32⟩
  | .hbm, ⟨5, _⟩ => ⟨S1, .f32⟩
  | .hbm, ⟨6, _⟩ => ⟨S8x128x1x512, .f32⟩
  | .hbm, ⟨7, _⟩ => ⟨S8x1x128x512, .f32⟩
  | .hbm, ⟨8, _⟩ => ⟨S8x128x128x512, .f32⟩
  | .hbm, ⟨9, _⟩ => ⟨S8x128x128x512, .f32⟩
  | .hbm, ⟨10, _⟩ => ⟨S8x128x128x512, .f32⟩
  | .hbm, ⟨11, _⟩ => ⟨S8x128x128x512, .f32⟩
  | .hbm, ⟨12, _⟩ => ⟨S8x128x128x512, .f32⟩
  | .hbm, ⟨13, _⟩ => ⟨S8x128x128x512, .f32⟩
  | .hbm, ⟨14, _⟩ => ⟨S8x128x128x1024, .f32⟩
  | .hbm, ⟨15, _⟩ => ⟨S8x128x128x1024, .f32⟩
  | .hbm, ⟨16, _⟩ => ⟨S1x1x1x1024, .f32⟩
  | .hbm, ⟨17, _⟩ => ⟨S8x128x128x1024, .f32⟩
  | .hbm, ⟨18, _⟩ => ⟨S8x128x128x1024, .f32⟩
  | .hbm, ⟨19, _⟩ => ⟨S8x128x128x1, .f32⟩
  | .hbm, ⟨20, _⟩ => ⟨S1x1x1x1, .f32⟩
  | .hbm, ⟨21, _⟩ => ⟨S8x128x128x1, .f32⟩
  | .hbm, ⟨22, _⟩ => ⟨S8x128x128x1, .f32⟩
  | .hbm, ⟨23, _⟩ => ⟨S8x128x128, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S8x128x512_S8x128x1x512_0_1_3 : S8x128x512.BroadcastsInDim S8x128x1x512 (![0, 1, 3] : Fin 3 → Fin S8x128x1x512.rank)
  bcast_S8x128x512_S8x1x128x512_0_2_3 : S8x128x512.BroadcastsInDim S8x1x128x512 (![0, 2, 3] : Fin 3 → Fin S8x1x128x512.rank)
  bcast_S8x128x1x512_S8x128x128x512_0_1_2_3 : S8x128x1x512.BroadcastsInDim S8x128x128x512 (![0, 1, 2, 3] : Fin 4 → Fin S8x128x128x512.rank)
  bcast_S8x1x128x512_S8x128x128x512_0_1_2_3 : S8x1x128x512.BroadcastsInDim S8x128x128x512 (![0, 1, 2, 3] : Fin 4 → Fin S8x128x128x512.rank)
  concatenates_S8x128x128x512_S8x128x128x512_S8x128x128x1024_d3 : Shape.Concatenates [S8x128x128x512, S8x128x128x512] S8x128x128x1024 3
  bcast_S1024_S1x1x1x1024_3 : S1024.BroadcastsInDim S1x1x1x1024 (![3] : Fin 1 → Fin S1x1x1x1024.rank)
  bcast_S1x1x1x1024_S8x128x128x1024_0_1_2_3 : S1x1x1x1024.BroadcastsInDim S8x128x128x1024 (![0, 1, 2, 3] : Fin 4 → Fin S8x128x128x1024.rank)
  bcast_S1_S1x1x1x1_3 : S1.BroadcastsInDim S1x1x1x1 (![3] : Fin 1 → Fin S1x1x1x1.rank)
  bcast_S1x1x1x1_S8x128x128x1_0_1_2_3 : S1x1x1x1.BroadcastsInDim S8x128x128x1 (![0, 1, 2, 3] : Fin 4 → Fin S8x128x128x1.rank)
  shapeCasts_S8x128x128x1_S8x128x128 : S8x128x128x1.ShapeCasts S8x128x128
  dot_S8x128x128x1024_S1024x1024_S8x128x128x1024_3_0_012_1_n_n_wf : DotDims.WF S8x128x128x1024 S1024x1024 S8x128x128x1024 [3] [0] [0, 1, 2] [1] [] []
  dot_S8x128x128x1024_S1024x1_S8x128x128x1_3_0_012_1_n_n_wf : DotDims.WF S8x128x128x1024 S1024x1 S8x128x128x1 [3] [0] [0, 1, 2] [1] [] []

variable [Facts₀]

def dot_S8x128x128x1024_S1024x1024_S8x128x128x1024_3_0_012_1_n_n : DotDims S8x128x128x1024 S1024x1024 S8x128x128x1024 where
  lhsContracting := [3]
  rhsContracting := [0]
  lhsNonContracting := [0, 1, 2]
  rhsNonContracting := [1]
  lhsBatch := []
  rhsBatch := []
  wf := dot_S8x128x128x1024_S1024x1024_S8x128x128x1024_3_0_012_1_n_n_wf
def dot_S8x128x128x1024_S1024x1_S8x128x128x1_3_0_012_1_n_n : DotDims S8x128x128x1024 S1024x1 S8x128x128x1 where
  lhsContracting := [3]
  rhsContracting := [0]
  lhsNonContracting := [0, 1, 2]
  rhsNonContracting := [1]
  lhsBatch := []
  rhsBatch := []
  wf := dot_S8x128x128x1024_S1024x1_S8x128x128x1_3_0_012_1_n_n_wf

class Facts : Prop extends Facts₀ where

variable [Facts]
-- ==== Proof.ScoreLaw.lean ====
import Idealize.ShloMosaic.PureOps.Ideal
import Mathlib.Algebra.BigOperators.Fin

/-!
# Two dense layers without a nonlinearity collapse to one bilinear form

A pair of rows `a`, `b` is turned into the feature vector `(a ⊙ b, a − b)`, the features go through a dense layer
`W = (Wl ; Wh)` with bias `β`, and the hidden vector through a second dense layer with ONE output, weights `w` and
bias `γ`:

  `∑ h, ((∑ k, (a k · b k) · Wl k h) + (∑ k, (a k − b k) · Wh k h) + β h) · w h + γ`.

Both layers are linear, so the hidden vector need not be formed: with `u k = ∑ h, Wl k h · w h` and
`v k = ∑ h, Wh k h · w h` the same number is

  `∑ k, (a k · u k) · b k + ∑ k, a k · v k − ∑ k, b k · v k + (∑ h, β h · w h + γ)`.

This is distributivity and an exchange of two finite sums; over the extended reals it holds when every entry is a real
number (at an infinite entry the product does not distribute over the sum).
-/

noncomputable section

namespace Cert.ScoreLaw

open scoped BigOperators

variable {K H : Type} [Fintype K] [Fintype H]

/-- The two dense layers applied to the features of one pair of rows. -/
def twoLayers (a b : K → EReal) (Wl Wh : K → H → EReal) (β w : H → EReal) (γ : EReal) : EReal :=
  (∑ h, (((∑ k, (a k * b k) * Wl k h) + ∑ k, (a k - b k) * Wh k h) + β h) * w h) + γ

/-- The collapsed form: a weighted inner product of the two rows, a term of each row alone, and a constant. -/
def collapsed (a b : K → EReal) (Wl Wh : K → H → EReal) (β w : H → EReal) (γ : EReal) : EReal :=
  (((∑ k, (a k * ∑ h, Wl k h * w h) * b k) + ∑ k, a k * ∑ h, Wh k h * w h) - ∑ k, b k * ∑ h, Wh k h * w h)
    + ((0 + ∑ h, β h * w h) + γ)

/-- The identity over the reals. -/
theorem real_law (a b : K → ℝ) (Wl Wh : K → H → ℝ) (β w : H → ℝ) (γ : ℝ) :
    (∑ h, (((∑ k, (a k * b k) * Wl k h) + ∑ k, (a k - b k) * Wh k h) + β h) * w h) + γ
      = (((∑ k, (a k * ∑ h, Wl k h * w h) * b k) + ∑ k, a k * ∑ h, Wh k h * w h) - ∑ k, b k * ∑ h, Wh k h * w h)
        + ((0 + ∑ h, β h * w h) + γ) := by
  have e1 : ∑ h, (∑ k, (a k * b k) * Wl k h) * w h = ∑ k, (a k * ∑ h, Wl k h * w h) * b k := by
    simp only [Finset.sum_mul, Finset.mul_sum]
    rw [Finset.sum_comm]
    exact Finset.sum_congr rfl fun k _ => Finset.sum_congr rfl fun h _ => by ring
  have e2 : ∑ h, (∑ k, (a k - b k) * Wh k h) * w h
      = (∑ k, a k * ∑ h, Wh k h * w h) - ∑ k, b k * ∑ h, Wh k h * w h := by
    rw [← Finset.sum_sub_distrib]
    simp only [Finset.sum_mul, Finset.mul_sum]
    rw [Finset.sum_comm]
    refine Finset.sum_congr rfl fun k _ => ?_
    rw [← Finset.sum_sub_distrib]
    exact Finset.sum_congr rfl fun h _ => by ring
  simp only [add_mul, Finset.sum_add_distrib]
  rw [e1, e2]
  ring

/-- The inclusion of the reals in the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The identity over the extended reals, at real entries. -/
theorem law_coe (a b : K → ℝ) (Wl Wh : K → H → ℝ) (β w : H → ℝ) (γ : ℝ) :
    twoLayers (fun k => (a k : EReal)) (fun k => (b k : EReal)) (fun k h => (Wl k h : EReal)) (fun k h => (Wh k h : EReal))
        (fun h => (β h : EReal)) (fun h => (w h : EReal)) (γ : EReal)
      = collapsed (fun k => (a k : EReal)) (fun k => (b k : EReal)) (fun k h => (Wl k h : EReal)) (fun k h => (Wh k h : EReal))
        (fun h => (β h : EReal)) (fun h => (w h : EReal)) (γ : EReal) := by
  unfold twoLayers collapsed
  rw [← EReal.coe_zero]
  simp only [← EReal.coe_mul, ← EReal.coe_sub, ← coe_sum, ← EReal.coe_add]
  exact congrArg _ (real_law a b Wl Wh β w γ)

/-- The identity over the extended reals, when every entry is a real number. -/
theorem law (a b : K → EReal) (Wl Wh : K → H → EReal) (β w : H → EReal) (γ : EReal)
    (ha : ∀ k, ∃ r : ℝ, a k = (r : EReal)) (hb : ∀ k, ∃ r : ℝ, b k = (r : EReal))
    (hl : ∀ k h, ∃ r : ℝ, Wl k h = (r : EReal)) (hh : ∀ k h, ∃ r : ℝ, Wh k h = (r : EReal))
    (hβ : ∀ h, ∃ r : ℝ, β h = (r : EReal)) (hw : ∀ h, ∃ r : ℝ, w h = (r : EReal)) (hγ : ∃ r : ℝ, γ = (r : EReal)) :
    twoLayers a b Wl Wh β w γ = collapsed a b Wl Wh β w γ := by
  choose a' ha using ha
  choose b' hb using hb
  choose l' hl using hl
  choose h' hh using hh
  choose β' hβ using hβ
  choose w' hw using hw
  obtain ⟨γ', rfl⟩ := hγ
  obtain rfl : a = fun k => (a' k : EReal) := funext ha
  obtain rfl : b = fun k => (b' k : EReal) := funext hb
  obtain rfl : Wl = fun k h => (l' k h : EReal) := funext fun k => funext (hl k)
  obtain rfl : Wh = fun k h => (h' k h : EReal) := funext fun k => funext (hh k)
  obtain rfl : β = fun h => (β' h : EReal) := funext hβ
  obtain rfl : w = fun h => (w' h : EReal) := funext hw
  exact law_coe a' b' l' h' β' w' γ'

end Cert.ScoreLaw

end
-- ==== Proof.ScoreSpec.lean ====
import proofs.«109378_j46583215292962_2_alg».proof.Proof.ScoreLaw
import Idealize.ShloMosaic.Lib.ValueIdx

/-!
# The score array, two ways

For a batch `n` and rows `i`, `j` the score of the pair (row `i` of `A`, row `j` of `B`) is the pair's features
`(A i ⊙ B j, A i − B j)` through two dense layers: first `W1 : [1024, 1024]` (its upper 512 rows meet the products, its
lower 512 rows the differences) with bias `b1`, then `W2 : [1024, 1]` with bias `b2`. `layered` is that array;
`collapsed` is the same array with the hidden layer summed out first. They agree when every entry is a real number.
-/

noncomputable section

namespace Cert.ScoreSpec

open Idealize.ShloMosaic Idealize.ShloMosaic.ValueIdx Cert.ScoreLaw
open scoped BigOperators

/-- Row `k` of the upper half of the first layer's weights. -/
def lo (k : Fin 512) : Fin 1024 := ⟨k.val, by omega⟩
/-- Row `k` of the lower half of the first layer's weights. -/
def hi (k : Fin 512) : Fin 1024 := ⟨512 + k.val, by omega⟩

/-- A sum over the 1024 features is the sum over the products' half plus the sum over the differences' half. -/
theorem sum_halves {M : Type} [AddCommMonoid M] (g : Fin 1024 → M) :
    ∑ f : Fin 1024, g f = (∑ k : Fin 512, g (lo k)) + ∑ k : Fin 512, g (hi k) :=
  Fin.sum_univ_add (a := 512) (b := 512) g

section

variable (A B : (⟨3, ![8, 128, 512]⟩ : Shape).Idx → EReal) (W1 : (⟨2, ![1024, 1024]⟩ : Shape).Idx → EReal)
  (b1 : (⟨1, ![1024]⟩ : Shape).Idx → EReal) (W2 : (⟨2, ![1024, 1]⟩ : Shape).Idx → EReal) (b2 : (⟨1, ![1]⟩ : Shape).Idx → EReal)

/-- The score of batch `n`, rows `i` and `j`, layer by layer. -/
def layeredAt (n : Fin 8) (i j : Fin 128) : EReal :=
  twoLayers (fun k : Fin 512 => A (ix3 n i k)) (fun k => B (ix3 n j k)) (fun k (h : Fin 1024) => W1 (ix2 (lo k) h))
    (fun k h => W1 (ix2 (hi k) h)) (fun h => b1 (ix1 h)) (fun h => W2 (ix2 h (0 : Fin 1))) (b2 (ix1 (0 : Fin 1)))

/-- The same score with the hidden layer summed out first. -/
def collapsedAt (n : Fin 8) (i j : Fin 128) : EReal :=
  collapsed (fun k : Fin 512 => A (ix3 n i k)) (fun k => B (ix3 n j k)) (fun k (h : Fin 1024) => W1 (ix2 (lo k) h))
    (fun k h => W1 (ix2 (hi k) h)) (fun h => b1 (ix1 h)) (fun h => W2 (ix2 h (0 : Fin 1))) (b2 (ix1 (0 : Fin 1)))

/-- The score array, layer by layer. -/
def layered : (⟨3, ![8, 128, 128]⟩ : Shape).Idx → EReal := fun x => layeredAt A B W1 b1 W2 b2 (x 0) (x 1) (x 2)

/-- The score array, collapsed. -/
def collapsedArr : (⟨3, ![8, 128, 128]⟩ : Shape).Idx → EReal := fun x => collapsedAt A B W1 b1 W2 b2 (x 0) (x 1) (x 2)

/-- On real entries the two arrays are one. -/
theorem layered_eq_collapsed (hA : ∀ i, ∃ r : ℝ, A i = (r : EReal)) (hB : ∀ i, ∃ r : ℝ, B i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal)) :
    layered A B W1 b1 W2 b2 = collapsedArr A B W1 b1 W2 b2 :=
  funext fun x => law _ _ _ _ _ _ _ (fun _ => hA _) (fun _ => hB _) (fun _ _ => hW1 _) (fun _ _ => hW1 _) (fun _ => hb1 _)
    (fun _ => hW2 _) (hb2 _)

end

end Cert.ScoreSpec

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.ScorePayload.lean ====
import proofs.«109378_j46583215292962_2_alg».proof.Proof.Gen.KernelIdeal.Skeleton
import proofs.«109378_j46583215292962_2_alg».proof.Proof.LibPlainDot
import proofs.«109378_j46583215292962_2_alg».proof.Proof.LibTileLayout
import Idealize.ShloMosaic.Lib.ValueIdx
import Idealize.ShloMosaic.Lib.ValueLayout
import Idealize.ShloMosaic.PureOps.Ideal.Laws

/-!
# One grid point's block, entry by entry

At one batch the body holds the two blocks `a`, `b` of 128 rows by 512 lanes, the two weight rows `u`, `v` of 512
lanes and the constant `c`. The entry `(p, q)` of what it stores is

  `∑ k, (a p k · u k) · b q k  +  ∑ k, a p k · v k  −  ∑ k, b q k · v k  +  c`:

the matrix product of `a ⊙ u` with `b` transposed (the rounding of its operands to bf16 is the identity on
extended reals), the row sums of `a ⊙ v` stood up as a column and spread along the rows, the row sums of `b ⊙ v`
laid down as a row and spread down the columns, and the constant everywhere.
-/

noncomputable section

namespace Cert.ScorePayload

open Idealize.ShloMosaic Idealize.ShloMosaic.ValueIdx Cert.KernelIdeal Cert.KernelIdeal.Gen
open scoped BigOperators

/-- The one entry of a `[1, 1]` block. -/
theorem extract_one (v8 : (⟨2, ![1, 1]⟩ : Shape).Idx → EReal) (h : ∀ a, (![0, 0] : Fin 2 → Nat) a < (⟨2, ![1, 1]⟩ : Shape).size a) :
    extractAt ![0, 0] v8 h = v8 (ix2 (0 : Fin 1) (0 : Fin 1)) := by
  unfold extractAt
  refine congrArg v8 (funext fun a => Fin.ext ?_)
  match a with
  | ⟨0, _⟩ => rfl
  | ⟨1, _⟩ => rfl

/-- The stored block at `(p, q)`. -/
theorem pay_apply (v0 v2 : Vec Ideal S1x128x512 .f32) (v4 v6 : Vec Ideal S1x512 .f32) (v8 : Vec Ideal S1x1 .f32)
    (u : Fin 1) (p q : Fin 128) :
    k0_pay1 (F := Ideal) v0 v2 v4 v6 v8 (ix3 u p q)
      = (((∑ k : Fin 512, (v0 (ix3 (0 : Fin 1) p k) * v4 (ix2 (0 : Fin 1) k)) * v2 (ix3 (0 : Fin 1) q k))
            + ∑ k : Fin 512, v0 (ix3 (0 : Fin 1) p k) * v6 (ix2 (0 : Fin 1) k))
          - ∑ k : Fin 512, v2 (ix3 (0 : Fin 1) q k) * v6 (ix2 (0 : Fin 1) k))
        + v8 (ix2 (0 : Fin 1) (0 : Fin 1)) := by
  unfold k0_pay1
  dsimp only [Idealize.ShloMosaic.matmul]
  rw [shapeCast_ab_1ab_apply, addf_apply, subf_apply, addf_apply, broadcast_apply, extract_one]
  refine congrArg₂ (· + ·) (congrArg₂ (· - ·) (congrArg₂ (· + ·) ?_ ?_) ?_) rfl
  · -- the matrix product of a ⊙ u with b transposed
    refine (Cert.LibPlainDot.matmul_zero_apply _ ⟨rfl, rfl, rfl, rfl, rfl, rfl⟩ none _ _ p q).trans
      (Finset.sum_congr rfl fun k _ => ?_)
    rw [truncf_apply, mulf_apply, shapeCast_1ab_ab_apply, broadcastTo_1b_ab_apply, shapeCast_self, transpose_ix2_apply,
      truncf_apply, shapeCast_1ab_ab_apply]
  · -- the row sums of a ⊙ v, as a column spread along the rows
    refine (Cert.TileLayout.broadcastTo_a1_ab_apply _ _ p q).trans
      ((Cert.TileLayout.shapeCast_a_a1_apply _ _ p (0 : Fin 1)).trans
        ((Cert.TileLayout.sum_axis1_apply _ _ _ _ _ p).trans (Finset.sum_congr rfl fun k _ => ?_)))
    rw [mulf_apply, shapeCast_1ab_ab_apply, broadcastTo_1b_ab_apply, shapeCast_self]
  · -- the row sums of b ⊙ v, as a row spread down the columns
    refine (broadcastTo_1b_ab_apply _ _ p q).trans
      ((transpose_ix2_apply _ _ (0 : Fin 1) q).trans
        ((Cert.TileLayout.shapeCast_a_a1_apply _ _ q (0 : Fin 1)).trans
          ((Cert.TileLayout.sum_axis1_apply _ _ _ _ _ q).trans (Finset.sum_congr rfl fun k _ => ?_))))
    rw [mulf_apply, shapeCast_1ab_ab_apply, broadcastTo_1b_ab_apply, shapeCast_self]

end Cert.ScorePayload

end
-- ==== Proof.ScoreGlue.lean ====
import proofs.«109378_j46583215292962_2_alg».proof.Proof.Gen.KernelIdeal.Frame
import proofs.«109378_j46583215292962_2_alg».proof.Proof.ScoreSpec
import proofs.«109378_j46583215292962_2_alg».proof.Proof.LibPlainDot
import Idealize.ShloMosaic.Lib.StableHlo.Run
import Idealize.ShloMosaic.Lib.IdealHost
import Idealize.ShloMosaic.Lib.ValueLayout
import Idealize.ShloMosaic.PureOps.Ideal.Laws

/-!
# The three small arrays computed before the grid

Before the grid runs, the two halves of the first layer's weights are each contracted with the second layer's one
column, giving the weight rows `u k = ∑ h, W1 (k, h) · W2 (h, 0)` and `v k = ∑ h, W1 (512 + k, h) · W2 (h, 0)` as
`[1, 512]` arrays, and the two biases are folded into the one number `(0 + ∑ h, b1 h · W2 (h, 0)) + b2 0`, a
`[1, 1]` array. Here each is read at an index.
-/

noncomputable section

namespace Cert.ScoreGlue

open Idealize.ShloMosaic Idealize.ShloMosaic.TcCoe Idealize.ShloMosaic.ValueIdx Idealize.SL.Sem
open Cert.KernelIdeal Cert.KernelIdeal.Gen Cert.ScoreSpec
open scoped BigOperators

variable (m : (ℓ : Loc nD τ sig) → Buf (Elt Ideal) ℓ) (c : Dev nD)

/-- The six argument arrays as launched, as arrays of extended reals. -/
abbrev arg0 : S8x128x512.Idx → EReal := m ((c : Thread nD τ).loc main_arg0)
abbrev arg1 : S8x128x512.Idx → EReal := m ((c : Thread nD τ).loc main_arg1)
abbrev arg2 : S1024x1024.Idx → EReal := m ((c : Thread nD τ).loc main_arg2)
abbrev arg3 : S1024.Idx → EReal := m ((c : Thread nD τ).loc main_arg3)
abbrev arg4 : S1024x1.Idx → EReal := m ((c : Thread nD τ).loc main_arg4)
abbrev arg5 : S1.Idx → EReal := m ((c : Thread nD τ).loc main_arg5)

/-- A vector's index set is its one coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ k : Fin n, f (ix1 k) := by
  rw [← Equiv.sum_comp (idxEquiv1 (n := n)).symm f]
  rfl

/-- One half of the first layer's weights (rows `o` to `o + 511`) against the second layer's column, at `(0, k)`. -/
theorem halfRow_apply (o : Nat) (W1 : FVec Ideal S1024x1024 .f32) (W2 : FVec Ideal S1024x1 .f32)
    (hs : S1024x1024.Slices ![o, 0] S512x1024) (r : Fin 512 → Fin 1024) (hr : ∀ k, (r k).val = o + k.val) (k : Fin 512) :
    shapeCast S1x512 (Host.dotGeneral dot_S512x1024_S1024x1_S512x1_1_0_0_1_n_n none
        (extractStridedSlice S512x1024 ![o, 0] W1 hs) W2) shapeCasts_S512x1_S1x512 (ix2 (0 : Fin 1) k)
      = ∑ h : Fin 1024, W1 (ix2 (r k) h) * W2 (ix2 h (0 : Fin 1)) := by
  refine (shapeCast_apply _ _ (ix2 (0 : Fin 1) k) (ix2 k (0 : Fin 1)) (by
    rw [Shape.rowMajor_val_two, Shape.rowMajor_val_two]
    show k.val * 1 + 0 = 0 * 512 + k.val
    omega)).trans ?_
  refine (Cert.LibPlainDot.dotGeneral_apply _ ⟨rfl, rfl, rfl, rfl, rfl, rfl⟩ none .single _ _ k (0 : Fin 1)).trans
    (Finset.sum_congr rfl fun h _ => ?_)
  rw [slice2_axis0_apply o W1 hs k h (r k) (hr k)]

/-- The folded bias, at its one index. -/
theorem bias_apply (b1 : FVec Ideal S1024 .f32) (W2 : FVec Ideal S1024x1 .f32) (b2 : FVec Ideal S1 .f32) :
    shapeCast S1x1 (addf (Host.reduceAdd (mulf b1 (shapeCast S1024 W2 shapeCasts_S1024x1_S1024))
        (constant (F := Ideal) S_ .f32 0x00000000#32) reducesTo_S1024_S_d0 h_S_) (shapeCast S_ b2 shapeCasts_S1_S_))
        shapeCasts_S_S1x1 (ix2 (0 : Fin 1) (0 : Fin 1))
      = (0 + ∑ h : Fin 1024, b1 (ix1 h) * W2 (ix2 h (0 : Fin 1))) + b2 (ix1 (0 : Fin 1)) := by
  refine (shapeCast_apply _ _ (ix2 (0 : Fin 1) (0 : Fin 1)) ix0 (by
    have h := (Shape.rowMajor S_ ix0).isLt
    have e : S_.numel = 1 := rfl
    rw [Shape.rowMajor_val_two]
    show (Shape.rowMajor S_ ix0).val = 0 * 1 + 0
    omega)).trans ?_
  rw [addf_apply, hostReduceAdd_apply, Ideal.hostReduceAdd_total reducesTo_S1024_S_d0 (fun b => b.elim0), constant_apply,
    Ideal.ofBits_zero_f32, sum_idx1]
  refine congrArg₂ (· + ·) (congrArg (0 + ·) (Finset.sum_congr rfl fun h _ => ?_)) ?_
  · rw [mulf_apply]
    refine congrArg (b1 (ix1 h) * ·) ?_
    exact shapeCast_apply _ _ _ (ix2 h (0 : Fin 1)) (by
      rw [Shape.rowMajor_val_two, Shape.rowMajor_val_one]
      show h.val * 1 + 0 = h.val
      omega)
  · exact shapeCast_apply _ _ ix0 (ix1 (0 : Fin 1)) (by
      have h := (Shape.rowMajor S_ ix0).isLt
      have e : S_.numel = 1 := rfl
      rw [Shape.rowMajor_val_one]
      show 0 = (Shape.rowMajor S_ ix0).val
      omega)

/-- The weight row that meets the products, as the region finds it. -/
theorem V_v3 : (V m c main_v3 : S1x512.Idx → EReal)
    = (shapeCast S1x512 (Host.dotGeneral (F := Ideal) (φ₁ := .f32) (φ₂ := .f32) dot_S512x1024_S1024x1_S512x1_1_0_0_1_n_n none
        (extractStridedSlice S512x1024 ![0, 0] (arg2 m c) slices_S1024x1024_S512x1024_0_0)
        (arg4 m c)) shapeCasts_S512x1_S1x512 : S1x512.Idx → EReal) := by
  dsimp only [V, hostOps0]
  after_results
  rfl

/-- The weight row that meets the differences, as the region finds it. -/
theorem V_v5 : (V m c main_v5 : S1x512.Idx → EReal)
    = (shapeCast S1x512 (Host.dotGeneral (F := Ideal) (φ₁ := .f32) (φ₂ := .f32) dot_S512x1024_S1024x1_S512x1_1_0_0_1_n_n none
        (extractStridedSlice S512x1024 ![512, 0] (arg2 m c) slices_S1024x1024_S512x1024_512_0)
        (arg4 m c)) shapeCasts_S512x1_S1x512 : S1x512.Idx → EReal) := by
  dsimp only [V, hostOps0]
  after_results
  rfl

/-- The folded bias, as the region finds it. -/
theorem V_v11 : (V m c main_v11 : S1x1.Idx → EReal)
    = (shapeCast S1x1 (addf (F := Ideal) (Host.reduceAdd (F := Ideal) (mulf (F := Ideal) (arg3 m c)
        (shapeCast S1024 (arg4 m c) shapeCasts_S1024x1_S1024))
        (constant (F := Ideal) S_ .f32 0x00000000#32) reducesTo_S1024_S_d0 h_S_)
        (shapeCast S_ (arg5 m c) shapeCasts_S1_S_)) shapeCasts_S_S1x1 : S1x1.Idx → EReal) := by
  dsimp only [V, hostOps0]
  after_results
  rfl

/-- The three arrays at an index, over the argument arrays. -/
theorem u_apply (k : Fin 512) : (V m c main_v3 : S1x512.Idx → EReal) (ix2 (0 : Fin 1) k)
    = ∑ h : Fin 1024, arg2 m c (ix2 (lo k) h) * arg4 m c (ix2 h (0 : Fin 1)) := by
  rw [V_v3]
  exact halfRow_apply 0 _ _ _ lo (fun k => (Nat.zero_add _).symm) k

theorem v_apply (k : Fin 512) : (V m c main_v5 : S1x512.Idx → EReal) (ix2 (0 : Fin 1) k)
    = ∑ h : Fin 1024, arg2 m c (ix2 (hi k) h) * arg4 m c (ix2 h (0 : Fin 1)) := by
  rw [V_v5]
  exact halfRow_apply 512 _ _ _ hi (fun _ => rfl) k

theorem c_apply : (V m c main_v11 : S1x1.Idx → EReal) (ix2 (0 : Fin 1) (0 : Fin 1))
    = (0 + ∑ h : Fin 1024, arg3 m c (ix1 h) * arg4 m c (ix2 h (0 : Fin 1))) + arg5 m c (ix1 (0 : Fin 1)) := by
  rw [V_v11]
  exact bias_apply _ _ _

end Cert.ScoreGlue

end
-- ==== Proof.ScoreBlocks.lean ====
import proofs.«109378_j46583215292962_2_alg».proof.Proof.Gen.KernelIdeal.Value
import proofs.«109378_j46583215292962_2_alg».proof.Proof.ScoreSpec
import proofs.«109378_j46583215292962_2_alg».proof.Proof.ScorePayload
import proofs.«109378_j46583215292962_2_alg».proof.Proof.ScoreGlue
import Idealize.ShloMosaic.Lib.Pipeline.Value
import Idealize.ShloMosaic.Lib.ValueIdx

/-!
# From the eight blocks to the score array

Grid point `t` holds batch `t` of `A` and of `B`, the two weight rows and the folded bias (the same at every point),
and writes back batch `t` of the output. What it writes is, entry by entry, the collapsed score of batch `t`; the eight
batches tile the output, so after the run the output array is the collapsed score array of the argument arrays.
-/

noncomputable section

namespace Cert.ScoreBlocks

open Idealize.ShloMosaic Idealize.ShloMosaic.TcCoe Idealize.ShloMosaic.ValueIdx Idealize.SL.Sem
open Cert.KernelIdeal Cert.KernelIdeal.Gen Cert.ScoreSpec Cert.ScoreLaw Cert.ScoreGlue
open Idealize.ShloMosaic.Pipeline (Dat)
open scoped BigOperators

/-- The blocks one grid point holds, written over the whole arrays at batch `n`, give that batch of the collapsed
    score array. -/
theorem point_eq (x0 x1 : Vec Ideal S1x128x512 .f32) (x2 x3 : Vec Ideal S1x512 .f32) (x4 : Vec Ideal S1x1 .f32)
    (A B : (⟨3, ![8, 128, 512]⟩ : Shape).Idx → EReal) (W1 : (⟨2, ![1024, 1024]⟩ : Shape).Idx → EReal)
    (b1 : (⟨1, ![1024]⟩ : Shape).Idx → EReal) (W2 : (⟨2, ![1024, 1]⟩ : Shape).Idx → EReal)
    (b2 : (⟨1, ![1]⟩ : Shape).Idx → EReal) (n : Fin 8)
    (h0 : ∀ (p : Fin 128) (k : Fin 512), x0 (ix3 (0 : Fin 1) p k) = A (ix3 n p k))
    (h1 : ∀ (q : Fin 128) (k : Fin 512), x1 (ix3 (0 : Fin 1) q k) = B (ix3 n q k))
    (h2 : ∀ k : Fin 512, x2 (ix2 (0 : Fin 1) k) = ∑ h : Fin 1024, W1 (ix2 (lo k) h) * W2 (ix2 h (0 : Fin 1)))
    (h3 : ∀ k : Fin 512, x3 (ix2 (0 : Fin 1) k) = ∑ h : Fin 1024, W1 (ix2 (hi k) h) * W2 (ix2 h (0 : Fin 1)))
    (h4 : x4 (ix2 (0 : Fin 1) (0 : Fin 1))
      = (0 + ∑ h : Fin 1024, b1 (ix1 h) * W2 (ix2 h (0 : Fin 1))) + b2 (ix1 (0 : Fin 1)))
    (u : Fin 1) (p q : Fin 128) :
    k0_pay1 (F := Ideal) x0 x1 x2 x3 x4 (ix3 u p q) = collapsedArr A B W1 b1 W2 b2 (ix3 n p q) := by
  rw [Cert.ScorePayload.pay_apply]
  simp only [h0, h1, h2, h3, h4]
  rfl

variable (m : (ℓ : Loc nD τ sig) → Buf (Elt Ideal) ℓ) (ρ : Dev nD → PrngReg)

/-- The collapsed score array of the argument arrays as launched. -/
def G (c : Dev nD) : S8x128x128.Idx → EReal :=
  collapsedArr (arg0 m c) (arg1 m c) (arg2 m c) (arg3 m c) (arg4 m c) (arg5 m c)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the two batched inputs and the output are at block `(t, 0, 0)`, the three
    small inputs at block `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The batch a grid point works on. -/
def batch (t : Fin cfg0.N) : Fin 8 := ⟨t.val, lt_of_lt_of_eq t.isLt N_0⟩

/-- WHAT POINT `t` WRITES BACK is block `t` of the collapsed score array. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz3]
  simp only [View.ld_unit_zero (S := S1x128x512) hz3, View.ld_unit_zero (S := S1x512) hz2, View.ld_unit_zero (S := S1x1) hz2]
  obtain ⟨a0, a1, a2, b0, b1, b2, c0, c1, d0, d1, e0, e1, f0, f1, f2⟩ := idx_facts t
  funext j
  show k0_pay1 (F := Ideal) (iblk m c 0 t) (iblk m c 1 t) (iblk m c 2 t) (iblk m c 3 t) (iblk m c 4 t) j
    = G m c (((cfg0.win 5).blk t).view.emb j)
  have hj : (j : S1x128x128.Idx) = ix3 (j 0) (j 1) (j 2) := eq_ix3 j
  have he : ((cfg0.win 5).blk t).view.emb j = ix3 (batch t) (j 1) (j 2) := by
    funext a; apply Fin.ext
    match a with
    | ⟨0, _⟩ => show win0_5.index t (0 : Fin 3) * 1 + 1 * (j 0).val = t.val; have : (j 0).val < 1 := (j 0).isLt; omega
    | ⟨1, _⟩ => show win0_5.index t (1 : Fin 3) * 128 + 1 * (j 1).val = (j 1).val; omega
    | ⟨2, _⟩ => show win0_5.index t (2 : Fin 3) * 128 + 1 * (j 2).val = (j 2).val; omega
  rw [he]
  refine Eq.trans (congrArg _ hj) ?_
  refine point_eq _ _ _ _ _ (arg0 m c) (arg1 m c) (arg2 m c) (arg3 m c) (arg4 m c) (arg5 m c) (batch t) ?_ ?_ ?_ ?_ ?_
    (j 0) (j 1) (j 2)
  · intro p k
    show V m c main_arg0 (((cfg0.win 0).blk t).view.emb (ix3 (0 : Fin 1) p k)) = _
    rw [V_main_arg0]
    refine congrArg _ (funext fun a => Fin.ext ?_)
    match a with
    | ⟨0, _⟩ => show win0_0.index t (0 : Fin 3) * 1 + 1 * 0 = t.val; omega
    | ⟨1, _⟩ => show win0_0.index t (1 : Fin 3) * 128 + 1 * p.val = p.val; omega
    | ⟨2, _⟩ => show win0_0.index t (2 : Fin 3) * 512 + 1 * k.val = k.val; omega
  · intro q k
    show V m c main_arg1 (((cfg0.win 1).blk t).view.emb (ix3 (0 : Fin 1) q k)) = _
    rw [V_main_arg1]
    refine congrArg _ (funext fun a => Fin.ext ?_)
    match a with
    | ⟨0, _⟩ => show win0_1.index t (0 : Fin 3) * 1 + 1 * 0 = t.val; omega
    | ⟨1, _⟩ => show win0_1.index t (1 : Fin 3) * 128 + 1 * q.val = q.val; omega
    | ⟨2, _⟩ => show win0_1.index t (2 : Fin 3) * 512 + 1 * k.val = k.val; omega
  · intro k
    show V m c main_v3 (((cfg0.win 2).blk t).view.emb (ix2 (0 : Fin 1) k)) = _
    rw [← Cert.ScoreGlue.u_apply m c k]
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * k.val = k.val; omega
  · intro k
    show V m c main_v5 (((cfg0.win 3).blk t).view.emb (ix2 (0 : Fin 1) k)) = _
    rw [← Cert.ScoreGlue.v_apply m c k]
    refine congrArg _ (funext fun a => Fin.ext ?_)
    match a with
    | ⟨0, _⟩ => show win0_3.index t (0 : Fin 2) * 1 + 1 * 0 = 0; omega
    | ⟨1, _⟩ => show win0_3.index t (1 : Fin 2) * 512 + 1 * k.val = k.val; omega
  · show V m c main_v11 (((cfg0.win 4).blk t).view.emb (ix2 (0 : Fin 1) (0 : Fin 1))) = _
    rw [← Cert.ScoreGlue.c_apply m c]
    refine congrArg _ (funext fun a => Fin.ext ?_)
    match a with
    | ⟨0, _⟩ => show win0_4.index t (0 : Fin 2) * 1 + 1 * 0 = 0; omega
    | ⟨1, _⟩ => show win0_4.index t (1 : Fin 2) * 1 + 1 * 0 = 0; omega

/-- An index of the output is in point `t`'s block iff each coordinate is in the block's range on its axis. -/
theorem mem_blk (t : Fin cfg0.N) (i : S8x128x128.Idx) :
    i ∈ ((cfg0.win 5).blk t).view.set ↔ ∀ a : Fin 3, win0_5.index t a * S1x128x128.size a ≤ (i a).val
      ∧ (i a).val < win0_5.index t a * S1x128x128.size a + S1x128x128.size a := by
  show i ∈ ((View.whole main_v12).slice (win0_5.rect t)).set ↔ _
  rw [View.set_slice_whole, Rect.mem_set_unit]
  exact Iff.rfl

/-- Every index of the output lies in the block of the point that works on its batch. -/
theorem cover (i : S8x128x128.Idx) :
    ∃ t : Fin cfg0.N, (cfg0.win 5).flush t = true ∧ i ∈ ((cfg0.win 5).blk t).view.set := by
  have hi0 : (i 0).val < 8 := (i 0).isLt
  have hi1 : (i 1).val < 128 := (i 1).isLt
  have hi2 : (i 2).val < 128 := (i 2).isLt
  have ht : (i 0).val < cfg0.N := lt_of_lt_of_eq hi0 N_0.symm
  refine ⟨⟨(i 0).val, ht⟩, flush0_5 _, ?_⟩
  rw [mem_blk]
  obtain ⟨-, -, -, -, -, -, -, -, -, -, -, -, f0, f1, f2⟩ := idx_facts ⟨(i 0).val, ht⟩
  have f0' : win0_5.index ⟨(i 0).val, ht⟩ (0 : Fin 3) = (i 0).val := f0
  intro a
  match a with
  | ⟨0, _⟩ =>
    show win0_5.index ⟨(i 0).val, ht⟩ (0 : Fin 3) * 1 ≤ (i 0).val ∧ (i 0).val < win0_5.index ⟨(i 0).val, ht⟩ (0 : Fin 3) * 1 + 1
    rw [f0']; omega
  | ⟨1, _⟩ =>
    show win0_5.index ⟨(i 0).val, ht⟩ (1 : Fin 3) * 128 ≤ (i 1).val ∧ (i 1).val < win0_5.index ⟨(i 0).val, ht⟩ (1 : Fin 3) * 128 + 128
    rw [f1]; omega
  | ⟨2, _⟩ =>
    show win0_5.index ⟨(i 0).val, ht⟩ (2 : Fin 3) * 128 ≤ (i 2).val ∧ (i 2).val < win0_5.index ⟨(i 0).val, ht⟩ (2 : Fin 3) * 128 + 128
    rw [f2]; omega

/-- THE OUTPUT ARRAY after the run is the collapsed score array of the argument arrays. -/
theorem final (c : Dev nD) : (dats m 0 c).arrAt 5 cfg0.N = G m c :=
  (dats m 0 c).arrAt_eq_of_cover 5 (G m c) (fun t _ => flushed_eq m c t) cover

/-- The kernel's run, with its result named. -/
theorem run : θ_run defs (onTc (τ := τ) (main (F := Ideal))) ⟨m, fun _ => 0, ρ⟩ fun r => ∀ c : Dev nD,
      r.2.mem ((c : Thread nD τ).loc main_v12) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.ScoreBlocks

end
-- ==== Proof.RefScore.lean ====
import proofs.«109378_j46583215292962_2_alg».proof.Proof.Gen.ReferenceIdeal.Read
import proofs.«109378_j46583215292962_2_alg».proof.Proof.ScoreSpec
import Idealize.ShloMosaic.Lib.Pipeline.Value
import Idealize.ShloMosaic.Lib.ValueIdx

/-!
# The reference computes the layered score array

Read entry by entry, the reference forms for the batch `n` and the rows `p`, `q` the 1024 features — the products
`A n p k · B n q k` on the first 512 positions, the differences `A n p k − B n q k` on the last 512 —, contracts them
with `W1`, adds `b1`, contracts the 1024 hidden values with the one column of `W2` and adds `b2`.
-/

noncomputable section

namespace Cert.RefScore

open Idealize.ShloMosaic Idealize.ShloMosaic.ValueIdx Cert.ReferenceIdeal Cert.ReferenceIdeal.Read Cert.ScoreSpec
open scoped BigOperators

variable (x0 x1 : FVec Ideal S8x128x512 .f32) (x2 : FVec Ideal S1024x1024 .f32) (x3 : FVec Ideal S1024 .f32)
  (x4 : FVec Ideal S1024x1 .f32) (x5 : FVec Ideal S1 .f32)

/-- A feature on the first half is a product of the two rows' entries. -/
theorem feat_lo (n : Fin 8) (p q : Fin 128) (k : Fin 512) :
    val_main_v8 (F := Ideal) x0 x1 (ix4 n p q (lo k)) = x0 (ix3 n p k) * x1 (ix3 n q k) := by
  unfold val_main_v8
  refine (concatenate_pair_apply_left (s₁ := S8x128x128x512) (s₂ := S8x128x128x512) _ _ _ _ (ix4 n p q (lo k)) rfl (ix4 n p q k) (fun b => by
    match b with
    | ⟨0, _⟩ => rfl
    | ⟨1, _⟩ => rfl
    | ⟨2, _⟩ => rfl
    | ⟨3, _⟩ => rfl)).trans ?_
  rw [val_main_v4_apply, val_main_v2_apply, val_main_v0_apply, val_main_v3_apply, val_main_v1_apply]
  have e0 : idx_main_v0 (idx_main_v2 (ix4 n p q k)) = ix3 n p k := funext fun a => by
    match a with
    | ⟨0, _⟩ => rfl
    | ⟨1, _⟩ => rfl
    | ⟨2, _⟩ => rfl
  have e1 : idx_main_v1 (idx_main_v3 (ix4 n p q k)) = ix3 n q k := funext fun a => by
    match a with
    | ⟨0, _⟩ => rfl
    | ⟨1, _⟩ => rfl
    | ⟨2, _⟩ => rfl
  rw [e0, e1]
  rfl

/-- A feature on the second half is a difference of the two rows' entries. -/
theorem feat_hi (n : Fin 8) (p q : Fin 128) (k : Fin 512) :
    val_main_v8 (F := Ideal) x0 x1 (ix4 n p q (hi k)) = x0 (ix3 n p k) - x1 (ix3 n q k) := by
  unfold val_main_v8
  refine (concatenate_pair_apply_right (s₁ := S8x128x128x512) (s₂ := S8x128x128x512) _ _ _ _ (ix4 n p q (hi k)) rfl rfl (ix4 n p q k) (fun b hb => by
    match b with
    | ⟨0, _⟩ => rfl
    | ⟨1, _⟩ => rfl
    | ⟨2, _⟩ => rfl
    | ⟨3, _⟩ => exact absurd rfl hb) (Nat.add_comm _ _)).trans ?_
  rw [val_main_v7_apply, val_main_v5_apply, val_main_v0_apply, val_main_v6_apply, val_main_v1_apply]
  have e0 : idx_main_v0 (idx_main_v5 (ix4 n p q k)) = ix3 n p k := funext fun a => by
    match a with
    | ⟨0, _⟩ => rfl
    | ⟨1, _⟩ => rfl
    | ⟨2, _⟩ => rfl
  have e1 : idx_main_v1 (idx_main_v6 (ix4 n p q k)) = ix3 n q k := funext fun a => by
    match a with
    | ⟨0, _⟩ => rfl
    | ⟨1, _⟩ => rfl
    | ⟨2, _⟩ => rfl
  rw [e0, e1]
  rfl

/-- One hidden value before its bias: the features against one column of `W1`, the two halves apart. -/
theorem hidden (n : Fin 8) (p q : Fin 128) (h : Fin 1024) :
    ∑ f : Fin 1024, val_main_v8 (F := Ideal) x0 x1 (ix4 n p q f) * x2 (ix2 f h)
      = (∑ k : Fin 512, (x0 (ix3 n p k) * x1 (ix3 n q k)) * x2 (ix2 (lo k) h))
        + ∑ k : Fin 512, (x0 (ix3 n p k) - x1 (ix3 n q k)) * x2 (ix2 (hi k) h) := by
  rw [sum_halves]
  simp only [feat_lo, feat_hi]

/-- The reference's result is the layered score array. -/
theorem ref_is_layered : val_main_v17 (F := Ideal) x0 x1 x2 x3 x4 x5 = layered x0 x1 x2 x3 x4 x5 := by
  funext i
  obtain ⟨n, p, q, rfl⟩ : ∃ (n : Fin 8) (p q : Fin 128), i = ix3 n p q := ⟨i 0, i 1, i 2, eq_ix3 i⟩
  have e17 : idx_main_v17 (ix3 n p q) = ix4 n p q (0 : Fin 1) := funext fun a => Fin.ext (by
    have hn := n.isLt
    have hp := p.isLt
    have hq := q.isLt
    match a with
    | ⟨0, _⟩ => show ((n.val * 128 + p.val) * 128 + q.val) / 16384 = n.val; omega
    | ⟨1, _⟩ => show ((n.val * 128 + p.val) * 128 + q.val) / 128 % 128 = p.val; omega
    | ⟨2, _⟩ => show ((n.val * 128 + p.val) * 128 + q.val) / 1 % 128 = q.val; omega
    | ⟨3, _⟩ => rfl)
  have e13l : ∀ h : Fin 1024, lidx_main_v13 (ix4 n p q (0 : Fin 1)) h = ix4 n p q h := fun h => funext fun a => by
    match a with
    | ⟨0, _⟩ => rfl
    | ⟨1, _⟩ => rfl
    | ⟨2, _⟩ => rfl
    | ⟨3, _⟩ => rfl
  have e13r : ∀ h : Fin 1024, ridx_main_v13 (ix4 n p q (0 : Fin 1)) h = ix2 h (0 : Fin 1) := fun h => funext fun a => by
    match a with
    | ⟨0, _⟩ => rfl
    | ⟨1, _⟩ => rfl
  have e9l : ∀ h f : Fin 1024, lidx_main_v9 (ix4 n p q h) f = ix4 n p q f := fun h f => funext fun a => by
    match a with
    | ⟨0, _⟩ => rfl
    | ⟨1, _⟩ => rfl
    | ⟨2, _⟩ => rfl
    | ⟨3, _⟩ => rfl
  have e9r : ∀ h f : Fin 1024, ridx_main_v9 (ix4 n p q h) f = ix2 f h := fun h f => funext fun a => by
    match a with
    | ⟨0, _⟩ => rfl
    | ⟨1, _⟩ => rfl
  have e10 : ∀ h : Fin 1024, idx_main_v10 (idx_main_v11 (ix4 n p q h)) = ix1 h := fun h => funext fun a => by
    match a with
    | ⟨0, _⟩ => rfl
  have e14 : idx_main_v14 (idx_main_v15 (ix4 n p q (0 : Fin 1))) = ix1 (0 : Fin 1) := funext fun a => by
    match a with
    | ⟨0, _⟩ => rfl
  rw [val_main_v17_apply, e17, val_main_v16_apply, val_main_v13_apply, val_main_v15_apply, val_main_v14_apply, e14]
  simp only [e13l, e13r, val_main_v12_apply, val_main_v9_apply, val_main_v11_apply, val_main_v10_apply, e9l, e9r, e10,
    hidden]
  rfl

end Cert.RefScore

end
-- ==== Proof.FiniteInputs.lean ====
/-
  From the printed precondition "every entry of every float input has |x| < +∞" to the statement that every
  entry is a real number.  The precondition is a conjunction of six tests, one per array; each test compares the
  absolute value of every entry with +∞ and takes the conjunction over all entries.  At the ideal reading a float is
  an extended real, |x| is max x (-x), the pattern 0x7F800000 is ⊤, and max x (-x) < ⊤ excludes both ⊤ and ⊥.
-/
import proofs.«109378_j46583215292962_2_alg».proof.Pre_finite_inputs
import proofs.«109378_j46583215292962_2_alg».proof.Proof.Gen.Pre_finite_inputs
import Idealize.ShloMosaic.PureOps.Ideal
import Idealize.ShloMosaic.Lib.ValueIdx
import Idealize.ShloMosaic.Lib.ReduceAll

noncomputable section

namespace Cert.FiniteInputs

open Idealize.ShloMosaic Cert.Pre_finite_inputs

/-- The shape with no axes has exactly one index. -/
instance subsingleton_scalar_idx : Subsingleton S_.Idx := ⟨fun a b => funext fun d => d.elim0⟩

/-- The single-precision pattern 0x7F800000 denotes +∞. -/
theorem inf_pattern_eq_top : Ideal.ofBits .f32 0x7F800000#32 = (⊤ : EReal) := by
  simp [Ideal.ofBits, Ideal.ieee]

/-- An extended real whose absolute value max x (-x) lies strictly below ⊤ is a real number:
    at ⊤ the maximum is ⊤, and at ⊥ it is -⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The element fact, for any shape: where the comparison "|x| < +∞" (the constant broadcast from a scalar)
    answers 1 at an index, the entry of x at that index is a real number. -/
theorem real_of_cmp_abs_inf {s : Shape} {dims : Fin S_.rank → Fin s.rank} (hb : S_.BroadcastsInDim s dims)
    (x : FVec Ideal s .f32) (i : s.Idx)
    (h : cmpf .olt (Host.absf x) (broadcastInDim s dims hb (constant (F := Ideal) S_ .f32 0x7F800000#32)) i = 1#1) :
    ∃ r : ℝ, x i = (r : EReal) := by
  -- read at the index, the comparison is the decision of max (x i) (-(x i)) < the value of the pattern
  have h' : BitVec.ofBool (decide (max (x i) (-(x i)) < Ideal.ofBits .f32 0x7F800000#32)) = 1#1 := h
  rw [inf_pattern_eq_top] at h'
  refine real_of_abs_lt_top (x i) ?_
  by_contra hn
  simp [hn] at h'

/-- Every entry of each of the six inputs is a real number when the precondition answers 1. -/
theorem real_of_pre (x0 x1 : FVec Ideal S8x128x512 .f32) (x2 : FVec Ideal S1024x1024 .f32) (x3 : FVec Ideal S1024 .f32)
    (x4 : FVec Ideal S1024x1 .f32) (x5 : FVec Ideal S1 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  -- the claim at the one index of the scalar result, with the printed function's operations in view
  have e := congrFun h ValueIdx.ix0
  dsimp only [fn, fn_part1] at e
  -- the result is the conjunction ((((t0 ∧ t1) ∧ t2) ∧ t3) ∧ t4) ∧ t5 of the six tests
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  -- each test is a conjunction over all entries, so every entry passes the comparison
  exact ⟨fun i => real_of_cmp_abs_inf _ x0 i (Host.reduce_andi_all _ _ _ _ _ e0 i),
    fun i => real_of_cmp_abs_inf _ x1 i (Host.reduce_andi_all _ _ _ _ _ e1 i),
    fun i => real_of_cmp_abs_inf _ x2 i (Host.reduce_andi_all _ _ _ _ _ e2 i),
    fun i => real_of_cmp_abs_inf _ x3 i (Host.reduce_andi_all _ _ _ _ _ e3 i),
    fun i => real_of_cmp_abs_inf _ x4 i (Host.reduce_andi_all _ _ _ _ _ e4 i),
    fun i => real_of_cmp_abs_inf _ x5 i (Host.reduce_andi_all _ _ _ _ _ e5 i)⟩

end Cert.FiniteInputs

end
-- ==== Proof.lean ====
/-
  A score for every pair of rows: for each batch, row `i` of `a` and row `j` of `b` give the features
  `(a_i ⊙ b_j, a_i − b_j)`, which go through a dense layer of width 1024 and then a dense layer with one output.
  The reference forms the features and applies the two layers. The kernel uses that both layers are linear: it
  contracts each half of the first layer's weights with the second layer's column once, outside the grid, and then per
  batch needs one matrix product of `a ⊙ u` with `b` transposed, two families of row sums and a constant.
  Over the extended reals the two agree when every input entry is a real number (distributivity and an exchange of
  finite sums); the precondition says exactly that. The kernel's rounding of its matrix operands to bf16 is the identity
  on extended reals, and no operation of the kernel was rewritten when it was idealized, so that claim is `True`.
-/
import proofs.«109378_j46583215292962_2_alg».proof.Defs
import proofs.«109378_j46583215292962_2_alg».proof.Proof.Gen.Kernel
import proofs.«109378_j46583215292962_2_alg».proof.Proof.Gen.Kernel.Skeleton
import proofs.«109378_j46583215292962_2_alg».proof.Proof.Gen.Kernel.Launch
import proofs.«109378_j46583215292962_2_alg».proof.Proof.Gen.Kernel.Points
import proofs.«109378_j46583215292962_2_alg».proof.Proof.Gen.Kernel.Frame
import proofs.«109378_j46583215292962_2_alg».proof.Proof.Gen.KernelIdeal
import proofs.«109378_j46583215292962_2_alg».proof.Proof.Gen.KernelIdeal.Skeleton
import proofs.«109378_j46583215292962_2_alg».proof.Proof.Gen.KernelIdeal.Launch
import proofs.«109378_j46583215292962_2_alg».proof.Proof.Gen.KernelIdeal.Points
import proofs.«109378_j46583215292962_2_alg».proof.Proof.Gen.KernelIdeal.Frame
import proofs.«109378_j46583215292962_2_alg».proof.Proof.Gen.KernelIdeal.Value
import proofs.«109378_j46583215292962_2_alg».proof.Proof.Gen.ReferenceIdeal
import proofs.«109378_j46583215292962_2_alg».proof.Proof.Gen.ReferenceIdeal.Run
import proofs.«109378_j46583215292962_2_alg».proof.Proof.Gen.ReferenceIdeal.Read
import proofs.«109378_j46583215292962_2_alg».proof.Proof.Gen.Pre_finite_inputs
import proofs.«109378_j46583215292962_2_alg».proof.Proof.ScoreSpec
import proofs.«109378_j46583215292962_2_alg».proof.Proof.ScoreBlocks
import proofs.«109378_j46583215292962_2_alg».proof.Proof.RefScore
import proofs.«109378_j46583215292962_2_alg».proof.Proof.FiniteInputs
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: it runs, and writes no argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree and are real numbers, the kernel ends at the collapsed score array and the reference at
    the layered one, and the two are equal. -/
theorem algebraic : Cert.algebraic_KernelIdeal_ReferenceIdeal := by
  intro m ρ m' ρ' hpre hagree
  refine ⟨fun c => Cert.ScoreBlocks.G m c, Cert.ScoreBlocks.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  obtain ⟨f0, f1, f2, f3, f4, f5⟩ := Cert.FiniteInputs.real_of_pre _ _ _ _ _ _ (hpre c)
  rw [Cert.ReferenceIdeal.Read.val_main_v17_eq, Cert.RefScore.ref_is_layered, e0, e1, e2, e3, e4, e5]
  exact Cert.ScoreSpec.layered_eq_collapsed _ _ _ _ _ _ f0 f1 f2 f3 f4 f5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
